-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S4000000x8 : Shape := ⟨2, ![4000000, 8]⟩
abbrev S16 : Shape := ⟨1, ![16]⟩
abbrev S16x8 : Shape := ⟨2, ![16, 8]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel
  bcast_S_S4000000x8 : S_.BroadcastsInDim S4000000x8 (![] : Fin 0 → Fin S4000000x8.rank)
  reducesTo_S4000000x8_S_d0_1 : S4000000x8.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_

variable [Facts]

def fn_part1 {F : FTy → Type} [FloatOps F] (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  main_v18

def fn {F : FTy → Type} [FloatOps F] (main_arg0 : FVec F S4000000x16 .f32) (main_arg1 : FVec F S4000000x8 .f32) (main_arg2 : FVec F S16 .f32) (main_arg3 : FVec F S16x8 .f32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  let main_v4 : FVec F S4000000x8 .f32 := Host.absf main_arg1
  let main_cst_0 : FVec F S_ .f32 := constant S_ .f32 0x7F800000#32
  let main_v5 : FVec F S4000000x8 .f32 := broadcastInDim S4000000x8 ![] bcast_S_S4000000x8 main_cst_0
  let main_v6 : IVec S4000000x8 1 := cmpf .olt main_v4 main_v5
  let main_c_1 : IVec S_ 1 := constantI S_ 1 1#1
  let main_v7 : IVec S_ 1 := (fun x v => Host.reduce IntOp.andi x v reducesTo_S4000000x8_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_v13 main_v16
-- ==== Kernel.lean ====
abbrev S4000000x16 : Shape := ⟨2, ![4000000, 16]⟩
abbrev S4000000x8 : Shape := ⟨2, ![4000000, 8]⟩
abbrev S16 : Shape := ⟨1, ![16]⟩
abbrev S16x8 : Shape := ⟨2, ![16, 8]⟩
abbrev S1x16 : Shape := ⟨2, ![1, 16]⟩
abbrev S8x16 : Shape := ⟨2, ![8, 16]⟩
abbrev S100000x16 : Shape := ⟨2, ![100000, 16]⟩
abbrev S100000x8 : Shape := ⟨2, ![100000, 8]⟩

abbrev nBuf : Space → Nat
  | .hbm => 7
  | .vmem => 8
  | .smem => 0
  | _ => 0

abbrev bufTy : (tb : Table) → Fin (tcTables nBuf tb) → BufTy
  | .hbm, ⟨0, _⟩ => ⟨S4000000x16, .f32⟩
  | .hbm, ⟨1, _⟩ => ⟨S4000000x8, .f32⟩
  | .hbm, ⟨2, _⟩ => ⟨S16, .f32⟩
  | .hbm, ⟨3, _⟩ => ⟨S16x8, .f32⟩
  | .hbm, ⟨4, _⟩ => ⟨S1x16, .f32⟩
  | .hbm, ⟨5, _⟩ => ⟨S8x16, .f32⟩
  | .hbm, ⟨6, _⟩ => ⟨S4000000x16, .f32⟩
  | .local _ .vmem, ⟨0, _⟩ => ⟨S100000x16, .f32⟩
  | .local _ .vmem, ⟨1, _⟩ => ⟨S100000x16, .f32⟩
  | .local _ .vmem, ⟨2, _⟩ => ⟨S100000x8, .f32⟩
  | .local _ .vmem, ⟨3, _⟩ => ⟨S100000x8, .f32⟩
  | .local _ .vmem, ⟨4, _⟩ => ⟨S1x16, .f32⟩
  | .local _ .vmem, ⟨5, _⟩ => ⟨S8x16, .f32⟩
  | .local _ .vmem, ⟨6, _⟩ => ⟨S100000x16, .f32⟩
  | .local _ .vmem, ⟨7, _⟩ => ⟨S100000x16, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S100000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  transposes_S16x8_S8x16_1_0 : S16x8.Transposes [1, 0] S8x16
  inb_S100000x16_S100000x16_0_0 : ∀ a, (![0, 0] : Fin 2 → Nat) a + S100000x16.size a ≤ S100000x16.size a
  h_S100000x16 : 0 < S100000x16.numel
  inb_S100000x8_S100000x8_0_0 : ∀ a, (![0, 0] : Fin 2 → Nat) a + S100000x8.size a ≤ S100000x8.size a
  h_S100000x8 : 0 < S100000x8.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S8x16_S8x16_0_0 : ∀ a, (![0, 0] : Fin 2 → Nat) a + S8x16.size a ≤ S8x16.size a
  h_S8x16 : 0 < S8x16.numel
  shapeCasts_S8x16_S8x16 : S8x16.ShapeCasts S8x16
  bitsLt_bf16_f32 : FTy.bits .bf16 < FTy.bits .f32
  broadcasts_S1x16_S100000x16 : S1x16.Broadcasts S100000x16
  dot_S100000x8_S8x16_S100000x16_1_0_0_1_n_n_wf : DotDims.WF S100000x8 S8x16 S100000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S100000x16.size a ≤ S4000000x16.size a
  hwx0_0 : ∀ i : grid0.Coords, EltTy.bits .f32 = 32 ∨ (Rect.block (s := S4000000x16) S100000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100000x8.size a ≤ S4000000x8.size a
  hwx0_1 : ∀ i : grid0.Coords, EltTy.bits .f32 = 32 ∨ (Rect.block (s := S4000000x8) S100000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S100000x16.size a ≤ S4000000x16.size a
  hwx0_4 : ∀ i : grid0.Coords, EltTy.bits .f32 = 32 ∨ (Rect.block (s := S4000000x16) S100000x16.size (cc0_transform_4 i) (hinb0_4 i)).WholeWords (EltTy.packing .f32)

variable [Facts₀]

def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf

abbrev win0_0 : Pipeline.Window sig grid0 :=
  Pipeline.Window.ofSpec (Memref.whole main_arg0) S100000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S100000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4000000x8 : Shape := ⟨2, ![4000000, 8]⟩
abbrev S16 : Shape := ⟨1, ![16]⟩
abbrev S16x8 : Shape := ⟨2, ![16, 8]⟩
abbrev S1x16 : Shape := ⟨2, ![1, 16]⟩
abbrev S8x16 : Shape := ⟨2, ![8, 16]⟩

abbrev nBuf : Space → Nat
  | .hbm => 10
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4000000x8, .f32⟩
  | .hbm, ⟨2, _⟩ => ⟨S16, .f32⟩
  | .hbm, ⟨3, _⟩ => ⟨S16x8, .f32⟩
  | .hbm, ⟨4, _⟩ => ⟨S1x16, .f32⟩
  | .hbm, ⟨5, _⟩ => ⟨S4000000x16, .f32⟩
  | .hbm, ⟨6, _⟩ => ⟨S4000000x16, .f32⟩
  | .hbm, ⟨7, _⟩ => ⟨S8x16, .f32⟩
  | .hbm, ⟨8, _⟩ => ⟨S4000000x16, .f32⟩
  | .hbm, ⟨9, _⟩ => ⟨S4000000x16, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  transposes_S16x8_S8x16_1_0 : S16x8.Transposes [1, 0] S8x16
  dot_S4000000x8_S8x16_S4000000x16_1_0_0_1_n_n_wf : DotDims.WF S4000000x8 S8x16 S4000000x16 [1] [0] [0] [1] [] []

variable [Facts₀]

def dot_S4000000x8_S8x16_S4000000x16_1_0_0_1_n_n : DotDims S4000000x8 S8x16 S4000000x16 where
  lhsContracting := [1]
  rhsContracting := [0]
  lhsNonContracting := [0]
  rhsNonContracting := [1]
  lhsBatch := []
  rhsBatch := []
  wf := dot_S4000000x8_S8x16_S4000000x16_1_0_0_1_n_n_wf

class Facts : Prop extends Facts₀ where

variable [Facts]
-- ==== Proof.Spec.lean ====
/-
  The mathematics of this certificate. Four million independent rows each take one step of a linear system
  whose state map is diagonal:  out[t, j] = x[t, j] · a[j] + Σ_k u[t, k] · B[j, k]   (t < 4000000, j < 16, k < 8),
  read on the extended reals. `step` is that function of the four argument arrays. `stepStaged` is the same
  function written over the two small operands as a tiled program stages them — the diagonal as a one-row
  matrix [1, 16], the input map transposed to [8, 16] — and `stepStaged_eq` says the two agree: a reshape of
  sixteen numbers to one row keeps the j-th number at column j, and the transpose swaps the two coordinates.
  No algebraic law is needed beyond reading these two re-layings at an index: both sides add the same product
  to the same eight-term sum, so nothing here asks the entries to be finite.
-/
import Idealize.ShloMosaic.PureOps.Ideal
import Idealize.ShloMosaic.Lib.ValueIdx
import Idealize.ShloMosaic.Lib.Pipeline.Value

noncomputable section

namespace Cert.DiagStep

open Idealize.ShloMosaic Idealize.ShloMosaic.ValueIdx

/-- One step for every row: entry (t, j) is x[t, j]·a[j] plus the inner product of u's row t with B's row j. -/
def step (x : FVec Ideal ⟨2, ![4000000, 16]⟩ .f32) (u : FVec Ideal ⟨2, ![4000000, 8]⟩ .f32)
    (a : FVec Ideal ⟨1, ![16]⟩ .f32) (b : FVec Ideal ⟨2, ![16, 8]⟩ .f32) : FVec Ideal ⟨2, ![4000000, 16]⟩ .f32 :=
  fun i => x i * a (ix1 (i 1 : Fin 16)) + ∑ k : Fin 8, u (ix2 (i 0 : Fin 4000000) k) * b (ix2 (i 1 : Fin 16) k)

/-- The same step over the diagonal as a one-row matrix and the input map transposed: entry (t, j) is
    x[t, j]·a'[0, j] plus the inner product of u's row t with b''s column j. -/
def stepStaged (x : FVec Ideal ⟨2, ![4000000, 16]⟩ .f32) (u : FVec Ideal ⟨2, ![4000000, 8]⟩ .f32)
    (a' : FVec Ideal ⟨2, ![1, 16]⟩ .f32) (b' : FVec Ideal ⟨2, ![8, 16]⟩ .f32) : FVec Ideal ⟨2, ![4000000, 16]⟩ .f32 :=
  fun i => x i * a' (ix2 (0 : Fin 1) (i 1 : Fin 16)) + ∑ k : Fin 8, u (ix2 (i 0 : Fin 4000000) k) * b' (ix2 k (i 1 : Fin 16))

/-- With the one-row matrix the reshape of a, and the [8, 16] matrix the transpose of B, the staged form is the step:
    the reshape has a[j] at (0, j) (same row-major position), the transpose has B[j, k] at (k, j). -/
theorem stepStaged_eq (x : FVec Ideal ⟨2, ![4000000, 16]⟩ .f32) (u : FVec Ideal ⟨2, ![4000000, 8]⟩ .f32)
    (a : FVec Ideal ⟨1, ![16]⟩ .f32) (b : FVec Ideal ⟨2, ![16, 8]⟩ .f32)
    (h1 : (⟨1, ![16]⟩ : Shape).ShapeCasts ⟨2, ![1, 16]⟩) (h2 : (⟨2, ![16, 8]⟩ : Shape).Transposes [1, 0] ⟨2, ![8, 16]⟩) :
    stepStaged x u (shapeCast ⟨2, ![1, 16]⟩ a h1) (transpose ⟨2, ![8, 16]⟩ [1, 0] b h2) = step x u a b := by
  funext i
  unfold stepStaged step
  have ea : shapeCast ⟨2, ![1, 16]⟩ a h1 (ix2 (0 : Fin 1) (i 1 : Fin 16)) = a (ix1 (i 1 : Fin 16)) :=
    shapeCast_apply a h1 _ _ (by
      rw [Shape.rowMajor_val_one, Shape.rowMajor_val_two]
      show (i 1).val = 0 * 16 + (i 1).val
      omega)
  have eb : ∀ k : Fin 8, transpose ⟨2, ![8, 16]⟩ [1, 0] b h2 (ix2 k (i 1 : Fin 16)) = b (ix2 (i 1 : Fin 16) k) := fun k =>
    transpose_apply [1, 0] b h2 _ _ (fun bb => match bb with
      | ⟨0, _⟩ => rfl
      | ⟨1, _⟩ => rfl)
  rw [ea]
  simp only [eb]

end Cert.DiagStep

end
-- ==== Proof.RefStep.lean ====
/-
  The reference program computes `step`. Its six host operations are: the diagonal broadcast to one row and then to
  every row, the product with x, the transpose of B, the contraction of u with it over the eight inputs, and the sum.
  Read at an index (t, j): the two broadcasts read a at j; the contraction is Σ_k u[t, k] · Bᵀ[k, j], and the
  transpose reads B at (j, k). So entry (t, j) is x[t, j]·a[j] + Σ_k u[t, k]·B[j, k].
-/
import proofs.«136185_j75771813036586_1_alg».proof.Proof.Gen.ReferenceIdeal.Read
import proofs.«136185_j75771813036586_1_alg».proof.Proof.Spec

noncomputable section

namespace Cert.DiagStep

open Idealize.ShloMosaic Idealize.ShloMosaic.ValueIdx
open Cert.ReferenceIdeal Cert.ReferenceIdeal.Read

/-- The reference's last stage, as a function of the four argument arrays, is the step. -/
theorem reference_eq (x : FVec Ideal S4000000x16 .f32) (u : FVec Ideal S4000000x8 .f32)
    (a : FVec Ideal S16 .f32) (b : FVec Ideal S16x8 .f32) :
    val_main_v5 (F := Ideal) x u a b = step x u a b := by
  funext i
  -- the diagonal, through its two broadcasts, is read at column j
  have ea : idx_main_v0 (idx_main_v1 i) = ix1 (i 1 : Fin 16) :=
    funext fun d => Fin.ext (by match d with | ⟨0, _⟩ => rfl)
  -- the contraction's left operand is read at (t, k)
  have eu : ∀ k : Fin 8, lidx_main_v4 i k = ix2 (i 0 : Fin 4000000) k := fun k =>
    funext fun d => Fin.ext (by match d with | ⟨0, _⟩ => rfl | ⟨1, _⟩ => rfl)
  -- and its right operand, through the transpose, at (j, k)
  have eb : ∀ k : Fin 8, idx_main_v3 (ridx_main_v4 i k) = ix2 (i 1 : Fin 16) k := fun k =>
    funext fun d => Fin.ext (by match d with | ⟨0, _⟩ => rfl | ⟨1, _⟩ => rfl)
  rw [val_main_v5_apply, val_main_v2_apply, val_main_v1_apply, val_main_v0_apply, val_main_v4_apply]
  simp only [val_main_v3_apply, ea, eu, eb]
  rfl

end Cert.DiagStep

end
-- ==== Proof.KernelTile.lean ====
/-
  What the kernel body computes on one tile of 100000 rows, read at an entry (p, q) of the tile. The body multiplies
  the tile of x by the one-row diagonal broadcast down the rows, and adds the product of the tile of u with the staged
  [8, 16] matrix, accumulated from zero. On the extended reals the narrowing of the two factors to a shorter float
  format is the identity, the zero accumulator adds nothing, and the matrix product at (p, q) is the eight-term sum
  Σ_k u[p, k] · w[k, q]. So entry (p, q) is x[p, q]·d[0, q] + Σ_k u[p, k]·w[k, q].
-/
import proofs.«136185_j75771813036586_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.DiagStep

open Idealize.ShloMosaic Idealize.ShloMosaic.ValueIdx
open Cert.KernelIdeal Cert.KernelIdeal.Gen

/-- The left factor of the tile's matrix product at output (p, q) and contraction index k: row p is the output's. -/
theorem tile_lhs_row (i : S100000x16.Idx) (r : dot_S100000x8_S8x16_S100000x16_1_0_0_1_n_n.contr.Idx) : (dot_S100000x8_S8x16_S100000x16_1_0_0_1_n_n.lhsIdx i r 0).val = (i 0).val := by
  unfold DotDims.lhsIdx
  rw [dif_neg (show ¬(0 : Fin S100000x8.rank) ∈ dot_S100000x8_S8x16_S100000x16_1_0_0_1_n_n.lhsBatch by decide),
    dif_pos (show (0 : Fin S100000x8.rank) ∈ dot_S100000x8_S8x16_S100000x16_1_0_0_1_n_n.lhsNonContracting by decide)]
  rfl

/-- Its column is the contraction index. -/
theorem tile_lhs_col (i : S100000x16.Idx) (r : dot_S100000x8_S8x16_S100000x16_1_0_0_1_n_n.contr.Idx) : (dot_S100000x8_S8x16_S100000x16_1_0_0_1_n_n.lhsIdx i r 1).val = (r ⟨0, by decide⟩).val :=
  dot_S100000x8_S8x16_S100000x16_1_0_0_1_n_n.lhsIdx_val_of_single rfl i r

/-- The right factor's row is the contraction index, -/
theorem tile_rhs_row (i : S100000x16.Idx) (r : dot_S100000x8_S8x16_S100000x16_1_0_0_1_n_n.contr.Idx) : (dot_S100000x8_S8x16_S100000x16_1_0_0_1_n_n.rhsIdx i r 0).val = (r ⟨0, by decide⟩).val :=
  dot_S100000x8_S8x16_S100000x16_1_0_0_1_n_n.rhsIdx_val_of_single rfl i r

/-- and its column the output's. -/
theorem tile_rhs_col (i : S100000x16.Idx) (r : dot_S100000x8_S8x16_S100000x16_1_0_0_1_n_n.contr.Idx) : (dot_S100000x8_S8x16_S100000x16_1_0_0_1_n_n.rhsIdx i r 1).val = (i 1).val := by
  unfold DotDims.rhsIdx
  rw [dif_neg (show ¬(1 : Fin S8x16.rank) ∈ dot_S100000x8_S8x16_S100000x16_1_0_0_1_n_n.rhsBatch by decide),
    dif_pos (show (1 : Fin S8x16.rank) ∈ dot_S100000x8_S8x16_S100000x16_1_0_0_1_n_n.rhsNonContracting by decide)]
  rfl

/-- The tile's matrix product from a zero accumulator, at (p, q): the sum over the eight inputs of l[p, k]·r[k, q]. -/
theorem tile_product (l : FVec Ideal S100000x8 .bf16) (r : FVec Ideal S8x16 .bf16) (p : Fin 100000) (q : Fin 16) :
    matmul dot_S100000x8_S8x16_S100000x16_1_0_0_1_n_n none l r (constant (F := Ideal) S100000x16 .f32 0x00000000#32) (ix2 p q)
      = ∑ k : Fin 8, l (ix2 p k) * r (ix2 k q) := by
  simp only [matmul]
  rw [Ideal.matmul_constant_zero_apply, ← Equiv.sum_comp (contrEquiv1 dot_S100000x8_S8x16_S100000x16_1_0_0_1_n_n 8 rfl rfl).symm]
  refine Finset.sum_congr rfl fun k _ => ?_
  have hk := contrEquiv1_symm_val dot_S100000x8_S8x16_S100000x16_1_0_0_1_n_n 8 rfl rfl k
  have el : dot_S100000x8_S8x16_S100000x16_1_0_0_1_n_n.lhsIdx (ix2 p q) ((contrEquiv1 dot_S100000x8_S8x16_S100000x16_1_0_0_1_n_n 8 rfl rfl).symm k) = ix2 p k := funext fun d => Fin.ext (by
    match d with
    | ⟨0, _⟩ => exact tile_lhs_row _ _
    | ⟨1, _⟩ => exact (tile_lhs_col _ _).trans hk)
  have er : dot_S100000x8_S8x16_S100000x16_1_0_0_1_n_n.rhsIdx (ix2 p q) ((contrEquiv1 dot_S100000x8_S8x16_S100000x16_1_0_0_1_n_n 8 rfl rfl).symm k) = ix2 k q := funext fun d => Fin.ext (by
    match d with
    | ⟨0, _⟩ => exact (tile_rhs_row _ _).trans hk
    | ⟨1, _⟩ => exact tile_rhs_col _ _)
  rw [el, er]

/-- The body's stored value at entry (p, q) of the tile, from the four staged blocks: x[p, q]·d[0, q] + Σ_k u[p, k]·w[k, q]. -/
theorem tile_apply (x0 : Vec Ideal S100000x16 .f32) (x1 : Vec Ideal S100000x8 .f32) (x2 : Vec Ideal S1x16 .f32)
    (x3 : Vec Ideal S8x16 .f32) (p : Fin 100000) (q : Fin 16) :
    k0_pay1 (F := Ideal) x0 x1 x2 x3 (ix2 p q)
      = x0 (ix2 p q) * x2 (ix2 (0 : Fin 1) q) + ∑ k : Fin 8, x1 (ix2 p k) * x3 (ix2 k q) := by
  unfold k0_pay1
  simp only [shapeCast_self]
  rw [addf_apply, mulf_apply, broadcastTo_1b_ab_apply, tile_product]
  rfl

end Cert.DiagStep

end
-- ==== Proof.KernelArray.lean ====
/-
  From tiles to the whole result. The grid has forty points. Point t stages rows 100000·t … 100000·t + 99999 of x and
  of u, the whole one-row diagonal and the whole [8, 16] matrix, and writes back the same rows of the output; a
  tile's entry (p, q) is the array's entry (100000·t + p, q). The one-row diagonal is the reshape of the argument a and
  the [8, 16] matrix the transpose of the argument B: the two host operations before the tiled region wrote them.
  So what point t writes back is tile t of `stepStaged` of the arrays the region finds; every row 0 ≤ r < 4000000 lies in
  the tile of point r / 100000; hence the output array ends as `stepStaged` of those arrays, which is `step` of the
  four arguments.
-/
import proofs.«136185_j75771813036586_1_alg».proof.Proof.Gen.KernelIdeal.Value
import proofs.«136185_j75771813036586_1_alg».proof.Proof.Spec
import proofs.«136185_j75771813036586_1_alg».proof.Proof.KernelTile
import Idealize.ShloMosaic.Lib.StableHlo.Run

noncomputable section

namespace Cert.DiagStep

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The two small operands as the region finds them -/

/-- The one-row diagonal buffer holds the reshape of the argument a. -/
theorem staged_diag (c : Dev nD) :
    (V m c main_v0 : S1x16.Idx → EReal) = shapeCast S1x16 (m ((c : Thread nD τ).loc main_arg2)) Facts₀.shapeCasts_S16_S1x16 := by
  dsimp only [Gen.V, Gen.hostOps0]
  after_results
  rfl

/-- The [8, 16] buffer holds the transpose of the argument B. -/
theorem staged_map (c : Dev nD) :
    (V m c main_v1 : S8x16.Idx → EReal)
      = transpose S8x16 [1, 0] (m ((c : Thread nD τ).loc main_arg3)) Facts₀.transposes_S16x8_S8x16_1_0 := by
  dsimp only [Gen.V, Gen.hostOps0]
  after_results

/-! ## What one grid point writes back -/

theorem zero_offsets : (![0, 0] : Fin 2 → Nat) = fun _ => 0 := funext fun a => by fin_cases a <;> rfl

/-- Where each operand's tile sits at point t: x, u and the output at row block t, column block 0; the diagonal and
    the [8, 16] matrix whole, at block (0, 0). Decided over the forty points. -/
theorem tile_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t writes back tile t of `stepStaged` of the arrays the region finds: the body's entry (p, q) is
    x[p, q]·d[0, q] + Σ_k u[p, k]·w[k, q] of the staged tiles, and each staged entry is the array's entry at the tile's
    offset — rows shifted by 100000·t for x and u, nothing shifted for the two whole small operands. -/
theorem tile_written (c : Dev nD) (t : Fin cfg0.N) :
    (dats m 0 c).flushed 4 t = ((cfg0.win 4).blk t).view.read (Elt Ideal)
      (stepStaged (V m c main_arg0) (V m c main_arg1) (V m c main_v0) (V m c main_v1)) := by
  rw [Cert.KernelIdeal.Value.flushed4]
  unfold out0_4
  rw [View.canon_unit_zero zero_offsets]
  simp only [View.ld_unit_zero (S := S100000x16) zero_offsets, View.ld_unit_zero (S := S100000x8) zero_offsets,
    View.ld_unit_zero (S := S1x16) zero_offsets, View.ld_unit_zero (S := S8x16) zero_offsets]
  obtain ⟨e00, e01, e10, e11, e20, e21, e30, e31, e40, e41⟩ := tile_indices t
  funext j
  obtain ⟨p, q, rfl⟩ : ∃ (p : Fin 100000) (q : Fin 16), j = ix2 p q := ⟨j 0, j 1, eq_ix2 j⟩
  show k0_pay1 (iblk m c 0 t) (iblk m c 1 t) (iblk m c 2 t) (iblk m c 3 t) (ix2 p q)
      = stepStaged (V m c main_arg0) (V m c main_arg1) (V m c main_v0) (V m c main_v1) (((cfg0.win 4).blk t).view.emb (ix2 p q))
  refine (tile_apply (iblk m c 0 t) (iblk m c 1 t) (iblk m c 2 t) (iblk m c 3 t) p q).trans ?_
  unfold stepStaged
  -- x's tile entry (p, q) is the array's entry at the output's index
  have hx : iblk m c 0 t (ix2 p q) = V m c main_arg0 (((cfg0.win 4).blk t).view.emb (ix2 p q)) := by
    show V m c main_arg0 (((cfg0.win 0).blk t).view.emb (ix2 p q)) = _
    have e : ((cfg0.win 0).blk t).view.emb (ix2 p q) = ((cfg0.win 4).blk t).view.emb (ix2 p q) := by
      funext a; apply Fin.ext
      match a with
      | ⟨0, _⟩ => show win0_0.index t (0 : Fin 2) * 100000 + 1 * p.val = win0_4.index t (0 : Fin 2) * 100000 + 1 * p.val; omega
      | ⟨1, _⟩ => show win0_0.index t (1 : Fin 2) * 16 + 1 * q.val = win0_4.index t (1 : Fin 2) * 16 + 1 * q.val; omega
    exact congrArg (V m c main_arg0) e
  -- the diagonal's entry (0, q) is the one-row buffer's entry (0, column of the output's index)
  have hd : iblk m c 2 t (ix2 (0 : Fin 1) q)
      = V m c main_v0 (ix2 (0 : Fin 1) ((((cfg0.win 4).blk t).view.emb (ix2 p q)) 1 : Fin 16)) := by
    show V m c main_v0 (((cfg0.win 2).blk t).view.emb (ix2 (0 : Fin 1) q)) = _
    have e : ((cfg0.win 2).blk t).view.emb (ix2 (0 : Fin 1) q)
        = ix2 (0 : Fin 1) ((((cfg0.win 4).blk t).view.emb (ix2 p q)) 1 : Fin 16) := by
      funext a; apply Fin.ext
      match a with
      | ⟨0, _⟩ => show win0_2.index t (0 : Fin 2) * 1 + 1 * 0 = 0; omega
      | ⟨1, _⟩ => show win0_2.index t (1 : Fin 2) * 16 + 1 * q.val = win0_4.index t (1 : Fin 2) * 16 + 1 * q.val; omega
    exact congrArg (V m c main_v0) e
  -- u's tile entry (p, k) is the array's entry (row of the output's index, k)
  have hu : ∀ k : Fin 8, iblk m c 1 t (ix2 p k)
      = V m c main_arg1 (ix2 ((((cfg0.win 4).blk t).view.emb (ix2 p q)) 0 : Fin 4000000) k) := fun k => by
    show V m c main_arg1 (((cfg0.win 1).blk t).view.emb (ix2 p k)) = _
    have e : ((cfg0.win 1).blk t).view.emb (ix2 p k)
        = ix2 ((((cfg0.win 4).blk t).view.emb (ix2 p q)) 0 : Fin 4000000) k := by
      funext a; apply Fin.ext
      match a with
      | ⟨0, _⟩ => show win0_1.index t (0 : Fin 2) * 100000 + 1 * p.val = win0_4.index t (0 : Fin 2) * 100000 + 1 * p.val; omega
      | ⟨1, _⟩ => show win0_1.index t (1 : Fin 2) * 8 + 1 * k.val = k.val; omega
    exact congrArg (V m c main_arg1) e
  -- the [8, 16] matrix's entry (k, q) is the buffer's entry (k, column of the output's index)
  have hw : ∀ k : Fin 8, iblk m c 3 t (ix2 k q)
      = V m c main_v1 (ix2 k ((((cfg0.win 4).blk t).view.emb (ix2 p q)) 1 : Fin 16)) := fun k => by
    show V m c main_v1 (((cfg0.win 3).blk t).view.emb (ix2 k q)) = _
    have e : ((cfg0.win 3).blk t).view.emb (ix2 k q)
        = ix2 k ((((cfg0.win 4).blk t).view.emb (ix2 p q)) 1 : Fin 16) := by
      funext a; apply Fin.ext
      match a with
      | ⟨0, _⟩ => show win0_3.index t (0 : Fin 2) * 8 + 1 * k.val = k.val; omega
      | ⟨1, _⟩ => show win0_3.index t (1 : Fin 2) * 16 + 1 * q.val = win0_4.index t (1 : Fin 2) * 16 + 1 * q.val; omega
    exact congrArg (V m c main_v1) e
  rw [hx, hd]
  simp only [hu, hw]

/-! ## The tiles fill the array -/

/-- An index of the output array is in point t's tile iff each coordinate is in the tile's range on its axis. -/
theorem mem_tile (t : Fin cfg0.N) (i : S4000000x16.Idx) :
    i ∈ ((cfg0.win 4).blk t).view.set ↔ ∀ a : Fin 2, win0_4.index t a * S100000x16.size a ≤ (i a).val
      ∧ (i a).val < win0_4.index t a * S100000x16.size a + S100000x16.size a := by
  show i ∈ ((View.whole main_v2).slice (win0_4.rect t)).set ↔ _
  rw [View.set_slice_whole, Rect.mem_set_unit]
  exact Iff.rfl

/-- Row r of the output is written back by point r / 100000. -/
theorem every_row_written (i : S4000000x16.Idx) :
    ∃ t : Fin cfg0.N, (cfg0.win 4).flush t = true ∧ i ∈ ((cfg0.win 4).blk t).view.set := by
  have hi0 : (i 0).val < 4000000 := (i 0).isLt
  have hi1 : (i 1).val < 16 := (i 1).isLt
  have hN : grid0.N = 40 := N_0
  obtain ⟨t, ht⟩ : ∃ t : Fin cfg0.N, t.val = (i 0).val / 100000 :=
    ⟨⟨(i 0).val / 100000, by show (i 0).val / 100000 < grid0.N; omega⟩, rfl⟩
  obtain ⟨-, -, -, -, -, -, -, -, e40, e41⟩ := tile_indices t
  refine ⟨t, flush0_4 t, ?_⟩
  rw [mem_tile]
  intro a
  match a with
  | ⟨0, _⟩ =>
    show win0_4.index t (0 : Fin 2) * 100000 ≤ (i 0).val ∧ (i 0).val < win0_4.index t (0 : Fin 2) * 100000 + 100000
    omega
  | ⟨1, _⟩ =>
    show win0_4.index t (1 : Fin 2) * 16 ≤ (i 1).val ∧ (i 1).val < win0_4.index t (1 : Fin 2) * 16 + 16
    omega

/-! ## The result array, and the run -/

/-- After the region the output array is `step` of the four arguments as launched. -/
theorem result_array (c : Dev nD) :
    (dats m 0 c).arrAt 4 cfg0.N = step (m ((c : Thread nD τ).loc main_arg0)) (m ((c : Thread nD τ).loc main_arg1))
      (m ((c : Thread nD τ).loc main_arg2)) (m ((c : Thread nD τ).loc main_arg3)) := by
  rw [(dats m 0 c).arrAt_eq_of_cover 4 _ (fun t _ => tile_written m c t) every_row_written,
    V_main_arg0, V_main_arg1, staged_diag, staged_map]
  exact stepStaged_eq _ _ _ _ _ _

/-- Every weakly fair execution of the tiled program ends with the output at `step` of the arguments and the
    arguments unchanged. -/
theorem kernel_run : θ_run defs (onTc (τ := τ) (main (F := Ideal))) ⟨m, fun _ => 0, ρ⟩ fun r => ∀ c : Dev nD,
      r.2.mem ((c : Thread nD τ).loc main_v2) = step (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩)
    (Cert.KernelIdeal.Value.run_blocks m ρ)

end Cert.DiagStep

end
-- ==== Proof.lean ====
/-
  The certificate's claim: a tiled program and a plain array program both compute one step
      out[t, j] = x[t, j] · a[j] + Σ_k u[t, k] · B[j, k]        (t < 4000000, j < 16, k < 8)
  of four million independent rows of a linear system with a diagonal state map, and agree on the extended reals.

  The tiled program reshapes a to one row and transposes B, then visits forty tiles of 100000 rows; on a tile it
  multiplies x by the one-row diagonal broadcast down the rows and adds the product of u with the transposed B,
  accumulated from zero (Proof/KernelTile.lean: an entry of the tile; Proof/KernelArray.lean: the tiles fill the
  array, so the result array is `step` of the arguments). The array program broadcasts a, multiplies, contracts u
  with the transpose of B and adds (Proof/RefStep.lean: its last stage is `step`). Proof/Spec.lean holds `step`
  and the reading of the reshape and the transpose at an index, the only facts that join the two sides; no law that
  needs finite entries is used, so the precondition is never opened.

  The three frame claims are the generated frames (the array program's is its generated run with the result
  dropped); the idealization rewrote nothing, so the preservation claim is trivial.
-/
import proofs.«136185_j75771813036586_1_alg».proof.Defs
import proofs.«136185_j75771813036586_1_alg».proof.Proof.Gen.Kernel
import proofs.«136185_j75771813036586_1_alg».proof.Proof.Gen.Kernel.Skeleton
import proofs.«136185_j75771813036586_1_alg».proof.Proof.Gen.Kernel.Launch
import proofs.«136185_j75771813036586_1_alg».proof.Proof.Gen.Kernel.Points
import proofs.«136185_j75771813036586_1_alg».proof.Proof.Gen.Kernel.Frame
import proofs.«136185_j75771813036586_1_alg».proof.Proof.Gen.KernelIdeal
import proofs.«136185_j75771813036586_1_alg».proof.Proof.Gen.KernelIdeal.Skeleton
import proofs.«136185_j75771813036586_1_alg».proof.Proof.Gen.KernelIdeal.Launch
import proofs.«136185_j75771813036586_1_alg».proof.Proof.Gen.KernelIdeal.Points
import proofs.«136185_j75771813036586_1_alg».proof.Proof.Gen.KernelIdeal.Frame
import proofs.«136185_j75771813036586_1_alg».proof.Proof.Gen.ReferenceIdeal
import proofs.«136185_j75771813036586_1_alg».proof.Proof.Gen.KernelIdeal.Value
import proofs.«136185_j75771813036586_1_alg».proof.Proof.Gen.ReferenceIdeal.Run
import proofs.«136185_j75771813036586_1_alg».proof.Proof.Gen.ReferenceIdeal.Read
import proofs.«136185_j75771813036586_1_alg».proof.Proof.Gen.Pre_finite_inputs
import proofs.«136185_j75771813036586_1_alg».proof.Proof.Spec
import proofs.«136185_j75771813036586_1_alg».proof.Proof.RefStep
import proofs.«136185_j75771813036586_1_alg».proof.Proof.KernelArray
import Idealize.ShloMosaic.Adequacy
import Idealize.ShloMosaic.Init

noncomputable section

namespace Cert.Proof

open Idealize.ShloMosaic Idealize.ShloMosaic.TcCoe Idealize.SL.Sem

/-- The word-level tiled program runs and leaves its arguments unchanged. -/
theorem frame_kernel : Cert.frame_Kernel := fun m ρ _ => Cert.Kernel.Gen.frame m ρ

/-- So does the tiled program read on the extended reals. -/
theorem frame_kernel_ideal : Cert.frame_KernelIdeal := fun m ρ _ => Cert.KernelIdeal.Gen.frame m ρ

/-- The array program runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result at `step` of those arguments:
    the tiled program by the tiles filling the array, the array program by its last stage read at an index. -/
theorem algebraic : Cert.algebraic_KernelIdeal_ReferenceIdeal := by
  intro m ρ m' ρ' _ hagree
  refine ⟨fun c => Cert.DiagStep.step (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.DiagStep.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.DiagStep.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
